-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x64 : Shape := ⟨2, ![800000, 64]⟩
abbrev S800000 : Shape := ⟨1, ![800000]⟩
abbrev S128x64 : Shape := ⟨2, ![128, 64]⟩
abbrev S64 : Shape := ⟨1, ![64]⟩
abbrev S_ : Shape := ⟨0, ![]⟩

class Facts : Prop where
  bcast_S_S800000x64 : S_.BroadcastsInDim S800000x64 (![] : Fin 0 → Fin S800000x64.rank)
  reducesTo_S800000x64_S_d0_1 : S800000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S800000x64 .f32) (main_arg1 : FVec F S800000x64 .f32) (main_arg2 : IVec S800000 32) (main_arg3 : FVec F S128x64 .f32) (main_arg4 : FVec F S64 .f32) : IVec S_ 1 :=
  let main_v0 : FVec F S800000x64 .f32 := Host.absf main_arg0
  let main_cst : FVec F S_ .f32 := constant S_ .f32 0x7F800000#32
  let main_v1 : FVec F S800000x64 .f32 := broadcastInDim S800000x64 ![] bcast_S_S800000x64 main_cst
  let main_v2 : IVec S800000x64 1 := cmpf .olt main_v0 main_v1
  let main_c : IVec S_ 1 := constantI S_ 1 1#1
  let main_v3 : IVec S_ 1 := (fun x v => Host.reduce IntOp.andi x v reducesTo_S800000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S400000x128 : Shape := ⟨2, ![400000, 128]⟩
abbrev S8000x128 : Shape := ⟨2, ![8000, 128]⟩
abbrev S50000x64 : Shape := ⟨2, ![50000, 64]⟩
abbrev S800000x1 : Shape := ⟨2, ![800000, 1]⟩

abbrev nBuf : Space → Nat
  | .hbm => 27
  | .vmem => 9
  | .smem => 0
  | _ => 0

abbrev bufTy : (tb : Table) → Fin (tcTables nBuf tb) → BufTy
  | .hbm, ⟨0, _⟩ => ⟨S800000x64, .f32⟩
  | .hbm, ⟨1, _⟩ => ⟨S800000x64, .f32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x128, .f32⟩
  | .hbm, ⟨10, _⟩ => ⟨S64x128, .f32⟩
  | .hbm, ⟨11, _⟩ => ⟨S128x128, .f32⟩
  | .hbm, ⟨12, _⟩ => ⟨S_, .f32⟩
  | .hbm, ⟨13, _⟩ => ⟨S64x64, .f32⟩
  | .hbm, ⟨14, _⟩ => ⟨S64x128, .f32⟩
  | .hbm, ⟨15, _⟩ => ⟨S64x128, .f32⟩
  | .hbm, ⟨16, _⟩ => ⟨S128x128, .f32⟩
  | .hbm, ⟨17, _⟩ => ⟨S128, .f32⟩
  | .hbm, ⟨18, _⟩ => ⟨S1x128, .f32⟩
  | .hbm, ⟨19, _⟩ => ⟨S400000x128, .f32⟩
  | .hbm, ⟨20, _⟩ => ⟨S400000x128, .f32⟩
  | .hbm, ⟨21, _⟩ => ⟨S400000x128, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | _, _ => ⟨S800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x64_S64x64_0_0 : S128x64.Slices ![0, 0] S64x64
  slices_S128x64_S64x64_64_0 : S128x64.Slices ![64, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  shapeCasts_S800000x64_S400000x128 : S800000x64.ShapeCasts S400000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S400000x128_S800000x64 : S400000x128.ShapeCasts S800000x64
  bcast_S_S50000x64 : S_.BroadcastsInDim S50000x64 (![] : Fin 0 → Fin S50000x64.rank)
  bcast_S800000_S800000x1_0 : S800000.BroadcastsInDim S800000x1 (![0] : Fin 1 → Fin S800000x1.rank)
  dot_S8000x128_S128x128_S8000x128_1_0_0_1_n_n_wf : DotDims.WF S8000x128 S128x128 S8000x128 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S400000x128.size a
  hwx0_1 : ∀ i : grid0.Coords, EltTy.bits .f32 = 32 ∨ (Rect.block (s := S400000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S400000x128.size a
  hwx0_5 : ∀ i : grid0.Coords, EltTy.bits .f32 = 32 ∨ (Rect.block (s := S400000x128) S8000x128.size (cc0_transform_5 i) (hinb0_5 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v12) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S800000x64 : Shape := ⟨2, ![800000, 64]⟩
abbrev S800000 : Shape := ⟨1, ![800000]⟩
abbrev S128x64 : Shape := ⟨2, ![128, 64]⟩
abbrev S64 : Shape := ⟨1, ![64]⟩
abbrev S800000x128 : Shape := ⟨2, ![800000, 128]⟩
abbrev S1x64 : Shape := ⟨2, ![1, 64]⟩
abbrev S_ : Shape := ⟨0, ![]⟩
abbrev S50000x64 : Shape := ⟨2, ![50000, 64]⟩
abbrev S800000x1 : Shape := ⟨2, ![800000, 1]⟩

abbrev nBuf : Space → Nat
  | .hbm => 17
  | .vmem => 0
  | .smem => 0
  | _ => 0

abbrev bufTy : (tb : Table) → Fin (tcTables nBuf tb) → BufTy
  | .hbm, ⟨0, _⟩ => ⟨S800000x64, .f32⟩
  | .hbm, ⟨1, _⟩ => ⟨S800000x64, .f32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S800000x128, .f32⟩
  | .hbm, ⟨6, _⟩ => ⟨S800000x64, .f32⟩
  | .hbm, ⟨7, _⟩ => ⟨S1x64, .f32⟩
  | .hbm, ⟨8, _⟩ => ⟨S800000x64, .f32⟩
  | .hbm, ⟨9, _⟩ => ⟨S800000x64, .f32⟩
  | .hbm, ⟨10, _⟩ => ⟨S_, .f32⟩
  | .hbm, ⟨11, _⟩ => ⟨S800000x64, .f32⟩
  | .hbm, ⟨12, _⟩ => ⟨S800000x64, .f32⟩
  | .hbm, ⟨13, _⟩ => ⟨S_, .f32⟩
  | .hbm, ⟨14, _⟩ => ⟨S50000x64, .f32⟩
  | .hbm, ⟨15, _⟩ => ⟨S800000x1, .i32⟩
  | .hbm, ⟨16, _⟩ => ⟨S50000x64, .f32⟩
  | _, _ => ⟨S800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S800000_S800000x1_0 : S800000.BroadcastsInDim S800000x1 (![0] : Fin 1 → Fin S800000x1.rank)
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1

variable [Facts₀]

def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelEntry.lean ====
/-
  What the kernel's region finds in the five arrays it stages.

  Before the region the host lays the operands out. The two edge-feature arrays [800000, 64] are re-laid, row-major,
  as [400000, 128]: row `r` holds edges `2r` and `2r + 1` side by side. The weight matrix W [128, 64] is cut into its
  upper half W₁ (rows 0..63, which multiply x_i) and its lower half W₂ (rows 64..127, which multiply x_j), and each
  half `B` is spread into the 128 × 128 block matrix [[B, 0], [0, B]]. The bias [64] is written twice, side by side,
  as one row [1, 128]. Each of the five arrays is stated here as that term of the program's arguments.
-/
import proofs.«121265_j12463995093091_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

/-- The 128 × 128 block matrix [[B, Z], [Z, B]] of two 64 × 64 pieces, as the host builds it: two rows of blocks, each
    a side-by-side pair, stacked. -/
def blockDiag {α : Type} (B Z : S64x64.Idx → α) : S128x128.Idx → α :=
  concatenate S128x128 0
    [⟨S64x128, concatenate S64x128 1 [⟨S64x64, B⟩, ⟨S64x64, Z⟩] concatenates_S64x64_S64x64_S64x128_d1⟩,
     ⟨S64x128, concatenate S64x128 1 [⟨S64x64, Z⟩, ⟨S64x64, B⟩] concatenates_S64x64_S64x64_S64x128_d1⟩]
    concatenates_S64x128_S64x128_S128x128_d0

/-- The 64 × 64 block of zeros the host pads with. -/
def zeroBlock : S64x64.Idx → EReal :=
  broadcastInDim S64x64 ![] bcast_S_S64x64 (constant (F := Ideal) S_ .f32 0x00000000#32)

/-- Rows 0..63 of W: the half that multiplies x_i. -/
def upperHalf (W : S128x64.Idx → EReal) : S64x64.Idx → EReal :=
  extractStridedSlice S64x64 ![0, 0] W slices_S128x64_S64x64_0_0

/-- Rows 64..127 of W: the half that multiplies x_j. -/
def lowerHalf (W : S128x64.Idx → EReal) : S64x64.Idx → EReal :=
  extractStridedSlice S64x64 ![64, 0] W slices_S128x64_S64x64_64_0

/-- The bias written twice side by side, as one row. -/
def biasRow (b : S64.Idx → EReal) : S1x128.Idx → EReal :=
  shapeCast S1x128 (concatenate S128 0 [⟨S64, b⟩, ⟨S64, b⟩] concatenates_S64_S64_S128_d0) shapeCasts_S128_S1x128

/-- An edge-feature array with two consecutive edges per row. -/
def packed (x : S800000x64.Idx → EReal) : S400000x128.Idx → EReal :=
  shapeCast S400000x128 x shapeCasts_S800000x64_S400000x128

variable (m : (ℓ : Loc nD τ sig) → Buf (Elt Ideal) ℓ)

/-- Window 0's array: x_i, packed. -/
theorem V_xi (c : Dev nD) : (V m c main_v12 : S400000x128.Idx → EReal) = packed (m ((c : Thread nD τ).loc main_arg0)) := by
  show StableHlo.after hostOps0 (fun b => m (c, b)) (Proc.devRef .tc main_v12) = _
  after_results
  rfl

/-- Window 1's array: x_j, packed. -/
theorem V_xj (c : Dev nD) : (V m c main_v13 : S400000x128.Idx → EReal) = packed (m ((c : Thread nD τ).loc main_arg1)) := by
  show StableHlo.after hostOps0 (fun b => m (c, b)) (Proc.devRef .tc main_v13) = _
  after_results
  rfl

/-- Window 2's array: [[W₁, 0], [0, W₁]]. -/
theorem V_w1 (c : Dev nD) : (V m c main_v5 : S128x128.Idx → EReal)
    = blockDiag (upperHalf (m ((c : Thread nD τ).loc main_arg3))) zeroBlock := by
  show StableHlo.after hostOps0 (fun b => m (c, b)) (Proc.devRef .tc main_v5) = _
  after_results
  rfl

/-- Window 3's array: [[W₂, 0], [0, W₂]]. -/
theorem V_w2 (c : Dev nD) : (V m c main_v9 : S128x128.Idx → EReal)
    = blockDiag (lowerHalf (m ((c : Thread nD τ).loc main_arg3))) zeroBlock := by
  show StableHlo.after hostOps0 (fun b => m (c, b)) (Proc.devRef .tc main_v9) = _
  after_results
  rfl

/-- Window 4's array: the bias row. -/
theorem V_bias (c : Dev nD) : (V m c main_v11 : S1x128.Idx → EReal) = biasRow (m ((c : Thread nD τ).loc main_arg4)) := by
  show StableHlo.after hostOps0 (fun b => m (c, b)) (Proc.devRef .tc main_v11) = _
  after_results
  rfl

end Cert.KernelIdeal.Entry

end
-- ==== Proof.KernelTail.lean ====
/-
  What the kernel's program leaves in its two results, from what the region leaves in its output array.

  After the region the host re-lays the region's output [400000, 128] row-major as [800000, 64] (one edge per row
  again): that is the second result, the messages. The first result is the segment sum of those messages by
  recipient: a scatter-add into a [50000, 64] array of zeros, the recipients [800000] turned into a column
  [800000, 1]. The scatter is left closed here: the reference ends with the same scatter applied to its own
  messages, so it is enough that the messages agree.
-/
import proofs.«121265_j12463995093091_2_alg».proof.Proof.Gen.KernelIdeal.Frame
import Idealize.ShloMosaic.Lib.StableHlo.Run
import Idealize.ShloMosaic.PureOps.Ideal

noncomputable section

namespace Cert.KernelIdeal.Tail

open Cert.KernelIdeal Cert.KernelIdeal.Gen Idealize.ShloMosaic Idealize.ShloMosaic.TcCoe Idealize.SL.Sem
open Idealize.ShloMosaic.StableHlo

/-- One edge per row again: the region's output re-laid as [800000, 64]. -/
def unpacked (y : S400000x128.Idx → EReal) : S800000x64.Idx → EReal :=
  shapeCast S800000x64 y shapeCasts_S400000x128_S800000x64

/-- The segment sum by recipient, as the kernel's program prints it. -/
def segmentSum (recipients : (⟨S800000, .i32⟩ : BufTy).Contents (Elt Ideal)) (msgs : S800000x64.Idx → EReal) :
    S50000x64.Idx → EReal :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 recipients) msgs

variable (m : (ℓ : Loc nD τ sig) → Buf (Elt Ideal) ℓ)

/-- The second result: the region's output array, one edge per row. -/
theorem messages (c : Dev nD) :
    (Pipeline.afterTail₀ cfgs (dats m) 0 (V0 m) [hostOps1] c main_v15 : S800000x64.Idx → EReal)
      = unpacked ((dats m 0 c).arrAt 5 cfg0.N) := by
  unfold Pipeline.afterTail₀
  show StableHlo.after hostOps1 _ (Proc.devRef .tc main_v15) = _
  after_results
  rw [Pipeline.withArrays_arr spec0 launch0.win.arr_inj c _ _ 5]
  rfl

/-- The first result: the segment sum of those messages by the recipients the program was launched with. -/
theorem aggregated (c : Dev nD) :
    (Pipeline.afterTail₀ cfgs (dats m) 0 (V0 m) [hostOps1] c main_v18 : S50000x64.Idx → EReal)
      = segmentSum (m ((c : Thread nD τ).loc main_arg2)) (unpacked ((dats m 0 c).arrAt 5 cfg0.N)) := by
  unfold Pipeline.afterTail₀
  show StableHlo.after hostOps1 _ (Proc.devRef .tc main_v18) = _
  after_results
  rw [Pipeline.withArrays_arr spec0 launch0.win.arr_inj c _ _ 5,
    Pipeline.withArrays_of_ne _ c (V0 m c) _ main_arg2 (by exact (by decide : ∀ w, Pipeline.arrRef spec0 w ≠ main_arg2)),
    show V0 m c (Proc.devRef .tc main_arg2) = m ((c : Thread nD τ).loc main_arg2) from V_main_arg2 m c]
  unfold segmentSum
  refine congrArg (Host.scatterAdd (F := Ideal) scatter_S50000x64_S800000x1_S800000x64_1_0_0_1 _ _) ?_
  rfl

end Cert.KernelIdeal.Tail

end
-- ==== Proof.Spec.lean ====
/-
  The specification: what both programs compute, as one function of the five arguments.

  An edge `e` carries two feature vectors `x_i e` and `x_j e` of length 64. Its message is the linear layer
  applied to the two vectors laid end to end, followed by the rectifier:

      msg e c  =  max ( Σ_{k<64} x_i[e,k]·W[k,c]  +  Σ_{k<64} x_j[e,k]·W[64+k,c]  +  b[c] ,  0 ).

  The sum over the 128 rows of W is written as its two halves, the rows that meet x_i and the rows that meet x_j:
  this is the grouping both programs are compared with. Everything is on the extended reals; only sums, products
  and a maximum occur, so the formula makes sense at every input and no finiteness is needed to state it.
  The second result of both programs is the array of all messages; the first is their segment sum by recipient.
-/
import Idealize.ShloMosaic.PureOps.Ideal
import Idealize.ShloMosaic.Lib.ValueIdx

noncomputable section

namespace Cert.EdgeMlp

open Idealize.ShloMosaic Idealize.ShloMosaic.ValueIdx

/-- The [800000, 64] arrays: one row per edge. -/
abbrev Edges : Shape := ⟨2, ![800000, 64]⟩
/-- The [128, 64] weight matrix. -/
abbrev Weights : Shape := ⟨2, ![128, 64]⟩
/-- The [64] bias. -/
abbrev Bias : Shape := ⟨1, ![64]⟩

/-- Row `k` of the upper half of the weight matrix (the rows that meet x_i). -/
abbrev upper (k : Fin 64) : Fin 128 := ⟨k.val, Nat.lt_trans k.isLt (by decide)⟩
/-- Row `64 + k`: row `k` of the lower half (the rows that meet x_j). -/
abbrev lower (k : Fin 64) : Fin 128 := ⟨64 + k.val, Nat.add_lt_add_left k.isLt 64⟩

/-- The message of edge `e` on channel `c`. -/
def msgAt (xi xj : Edges.Idx → EReal) (W : Weights.Idx → EReal) (b : Bias.Idx → EReal) (e : Fin 800000) (c : Fin 64) : EReal :=
  max ((∑ k : Fin 64, xi (ix2 e k) * W (ix2 (upper k) c)) + (∑ k : Fin 64, xj (ix2 e k) * W (ix2 (lower k) c)) + b (ix1 c)) 0

/-- All messages, as an [800000, 64] array. -/
def msg (xi xj : Edges.Idx → EReal) (W : Weights.Idx → EReal) (b : Bias.Idx → EReal) : Edges.Idx → EReal :=
  fun i => msgAt xi xj W b ⟨(i 0).val, (i 0).isLt⟩ ⟨(i 1).val, (i 1).isLt⟩

theorem msg_ix2 (xi xj : Edges.Idx → EReal) (W : Weights.Idx → EReal) (b : Bias.Idx → EReal) (e : Fin 800000) (c : Fin 64) :
    msg xi xj W b (ix2 e c) = msgAt xi xj W b e c := rfl

end Cert.EdgeMlp

end
-- ==== Proof.KernelOperands.lean ====
/-
  The kernel's staged arrays and its re-laid result, read at an index.

  Two edges share a packed row: row `r` of a packed [400000, 128] array holds edge 2r in columns 0..63 and edge 2r + 1
  in columns 64..127, because position (2r)·64 + k of the row-major order is r·128 + k and position (2r + 1)·64 + k
  is r·128 + 64 + k. Read the other way, edge 2r of the re-laid result is the left half of packed row r and edge
  2r + 1 the right half. The block matrix [[B, Z], [Z, B]] is read quadrant by quadrant, the two halves of W are rows
  0..63 and 64..127, the padding block is zero everywhere, and both halves of the doubled bias row are the bias.
-/
import proofs.«121265_j12463995093091_2_alg».proof.Proof.KernelEntry
import proofs.«121265_j12463995093091_2_alg».proof.Proof.KernelTail
import proofs.«121265_j12463995093091_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Operands

open Cert.KernelIdeal Cert.KernelIdeal.Gen Cert.KernelIdeal.Entry Cert.KernelIdeal.Tail Cert.EdgeMlp
open Idealize.ShloMosaic Idealize.ShloMosaic.ValueIdx

/-- The first edge of packed row `r`. -/
def even (r : Fin 400000) : Fin 800000 := ⟨2 * r.val, by have := r.isLt; omega⟩
/-- The second edge of packed row `r`. -/
def odd (r : Fin 400000) : Fin 800000 := ⟨2 * r.val + 1, by have := r.isLt; omega⟩

/-! ## The two re-layings -/

theorem packed_upper (x : S800000x64.Idx → EReal) (r : Fin 400000) (k : Fin 64) :
    packed x (ix2 r (upper k)) = x (ix2 (even r) k) :=
  shapeCast_apply x shapeCasts_S800000x64_S400000x128 _ _ (by
    rw [Shape.rowMajor_val_two, Shape.rowMajor_val_two]
    show 2 * r.val * 64 + k.val = r.val * 128 + k.val
    omega)

theorem packed_lower (x : S800000x64.Idx → EReal) (r : Fin 400000) (k : Fin 64) :
    packed x (ix2 r (lower k)) = x (ix2 (odd r) k) :=
  shapeCast_apply x shapeCasts_S800000x64_S400000x128 _ _ (by
    rw [Shape.rowMajor_val_two, Shape.rowMajor_val_two]
    show (2 * r.val + 1) * 64 + k.val = r.val * 128 + (64 + k.val)
    omega)

theorem unpacked_even (y : S400000x128.Idx → EReal) (r : Fin 400000) (c : Fin 64) :
    unpacked y (ix2 (even r) c) = y (ix2 r (upper c)) :=
  shapeCast_apply y shapeCasts_S400000x128_S800000x64 _ _ (by
    rw [Shape.rowMajor_val_two, Shape.rowMajor_val_two]
    show r.val * 128 + c.val = 2 * r.val * 64 + c.val
    omega)

theorem unpacked_odd (y : S400000x128.Idx → EReal) (r : Fin 400000) (c : Fin 64) :
    unpacked y (ix2 (odd r) c) = y (ix2 r (lower c)) :=
  shapeCast_apply y shapeCasts_S400000x128_S800000x64 _ _ (by
    rw [Shape.rowMajor_val_two, Shape.rowMajor_val_two]
    show r.val * 128 + (64 + c.val) = (2 * r.val + 1) * 64 + c.val
    omega)

/-! ## A side-by-side pair and a stacked pair of blocks -/

section Blocks
variable {α : Type}

/-- The left half of a side-by-side pair [L | R] of 64 × 64 blocks. -/
theorem beside_left (Lb Rb : S64x64.Idx → α) (k c : Fin 64) :
    concatenate S64x128 1 [⟨S64x64, Lb⟩, ⟨S64x64, Rb⟩] concatenates_S64x64_S64x64_S64x128_d1 (ix2 k (upper c)) = Lb (ix2 k c) :=
  concatenate_pair_apply_left (1 : Fin 2) Lb Rb concatenates_S64x64_S64x64_S64x128_d1 (ix2 k (upper c)) rfl (ix2 k c)
    (fun b => by match b with | ⟨0, _⟩ => rfl | ⟨1, _⟩ => rfl)

/-- The right half of a side-by-side pair. -/
theorem beside_right (Lb Rb : S64x64.Idx → α) (k c : Fin 64) :
    concatenate S64x128 1 [⟨S64x64, Lb⟩, ⟨S64x64, Rb⟩] concatenates_S64x64_S64x64_S64x128_d1 (ix2 k (lower c)) = Rb (ix2 k c) :=
  concatenate_pair_apply_right (1 : Fin 2) Lb Rb concatenates_S64x64_S64x64_S64x128_d1 (ix2 k (lower c)) rfl rfl (ix2 k c)
    (fun b hb => by match b with | ⟨0, _⟩ => rfl | ⟨1, _⟩ => exact absurd rfl hb)
    (by show c.val + 64 = 64 + c.val; omega)

/-- The upper rows of a stacked pair of 64 × 128 blocks. -/
theorem stacked_upper (Tb Bb : S64x128.Idx → α) (k : Fin 64) (q : Fin 128) :
    concatenate S128x128 0 [⟨S64x128, Tb⟩, ⟨S64x128, Bb⟩] concatenates_S64x128_S64x128_S128x128_d0 (ix2 (upper k) q) = Tb (ix2 k q) :=
  concatenate_pair_apply_left (0 : Fin 2) Tb Bb concatenates_S64x128_S64x128_S128x128_d0 (ix2 (upper k) q) rfl (ix2 k q)
    (fun b => by match b with | ⟨0, _⟩ => rfl | ⟨1, _⟩ => rfl)

/-- The lower rows of a stacked pair. -/
theorem stacked_lower (Tb Bb : S64x128.Idx → α) (k : Fin 64) (q : Fin 128) :
    concatenate S128x128 0 [⟨S64x128, Tb⟩, ⟨S64x128, Bb⟩] concatenates_S64x128_S64x128_S128x128_d0 (ix2 (lower k) q) = Bb (ix2 k q) :=
  concatenate_pair_apply_right (0 : Fin 2) Tb Bb concatenates_S64x128_S64x128_S128x128_d0 (ix2 (lower k) q) rfl rfl (ix2 k q)
    (fun b hb => by match b with | ⟨0, _⟩ => exact absurd rfl hb | ⟨1, _⟩ => rfl)
    (by show k.val + 64 = 64 + k.val; omega)

/-! ## The block matrix [[B, Z], [Z, B]], quadrant by quadrant -/

theorem blockDiag_uu (B Z : S64x64.Idx → α) (k c : Fin 64) : blockDiag B Z (ix2 (upper k) (upper c)) = B (ix2 k c) := by
  unfold blockDiag; rw [stacked_upper, beside_left]

theorem blockDiag_ul (B Z : S64x64.Idx → α) (k c : Fin 64) : blockDiag B Z (ix2 (upper k) (lower c)) = Z (ix2 k c) := by
  unfold blockDiag; rw [stacked_upper, beside_right]

theorem blockDiag_lu (B Z : S64x64.Idx → α) (k c : Fin 64) : blockDiag B Z (ix2 (lower k) (upper c)) = Z (ix2 k c) := by
  unfold blockDiag; rw [stacked_lower, beside_left]

theorem blockDiag_ll (B Z : S64x64.Idx → α) (k c : Fin 64) : blockDiag B Z (ix2 (lower k) (lower c)) = B (ix2 k c) := by
  unfold blockDiag; rw [stacked_lower, beside_right]

end Blocks

/-! ## The padding, the halves of W, the bias row -/

/-- The padding block is zero everywhere. -/
theorem zeroBlock_apply (k c : Fin 64) : zeroBlock (ix2 k c) = 0 := by
  unfold zeroBlock
  rw [broadcastInDim_apply _ bcast_S_S64x64 _ (ix2 k c) ix0 (fun a => a.elim0), constant_apply, Ideal.ofBits_zero_f32]

/-- Row `k` of the upper half of W is row `k` of W. -/
theorem upperHalf_apply (W : S128x64.Idx → EReal) (k c : Fin 64) : upperHalf W (ix2 k c) = W (ix2 (upper k) c) := by
  unfold upperHalf
  exact extractStridedSlice_apply ![0, 0] W slices_S128x64_S64x64_0_0 (ix2 k c) (ix2 (upper k) c)
    (fun a => by match a with
      | ⟨0, _⟩ => show k.val = 0 + k.val; omega
      | ⟨1, _⟩ => show c.val = 0 + c.val; omega)

/-- Row `k` of the lower half of W is row `64 + k` of W. -/
theorem lowerHalf_apply (W : S128x64.Idx → EReal) (k c : Fin 64) : lowerHalf W (ix2 k c) = W (ix2 (lower k) c) := by
  unfold lowerHalf
  exact extractStridedSlice_apply ![64, 0] W slices_S128x64_S64x64_64_0 (ix2 k c) (ix2 (lower k) c)
    (fun a => by match a with
      | ⟨0, _⟩ => rfl
      | ⟨1, _⟩ => show c.val = 0 + c.val; omega)

/-- The left half of the doubled bias row is the bias. -/
theorem biasRow_upper (b : S64.Idx → EReal) (c : Fin 64) : biasRow b (ix2 (0 : Fin 1) (upper c)) = b (ix1 c) := by
  unfold biasRow
  rw [shapeCast_a_1a_apply]
  exact concatenate_pair_apply_left (0 : Fin 1) b b concatenates_S64_S64_S128_d0 (ix1 (upper c)) rfl (ix1 c)
    (fun a => by match a with | ⟨0, _⟩ => rfl)

/-- So is the right half. -/
theorem biasRow_lower (b : S64.Idx → EReal) (c : Fin 64) : biasRow b (ix2 (0 : Fin 1) (lower c)) = b (ix1 c) := by
  unfold biasRow
  rw [shapeCast_a_1a_apply]
  exact concatenate_pair_apply_right (0 : Fin 1) b b concatenates_S64_S64_S128_d0 (ix1 (lower c)) rfl rfl (ix1 c)
    (fun a ha => by match a with | ⟨0, _⟩ => exact absurd rfl ha)
    (by show c.val + 64 = 64 + c.val; omega)

end Cert.KernelIdeal.Operands

end
-- ==== Proof.KernelPayload.lean ====
/-
  What the kernel's body stores, read at one entry.

  At a grid point the body holds a tile X_i [8000, 128] of packed x_i rows, the matching tile X_j of x_j, the two
  128 × 128 block matrices B₁ and B₂, and the bias row. It stores

      out[p, q]  =  max ( Σ_{k<128} X_i[p,k]·B₁[k,q]  +  Σ_{k<128} X_j[p,k]·B₂[k,q]  +  bias[0,q] ,  0 ).

  On the extended reals the narrowing of the operands to bf16 is the identity, a matrix product into a zero
  accumulator is the plain sum of products, and the zero splat is the number 0; the shape casts are to the same
  shape. The body is the same term at every grid point, so the lemma is stated over arbitrary tiles.
-/
import proofs.«121265_j12463995093091_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The product's left operand is read in the output's row. -/
theorem lhs_row (i : S8000x128.Idx) (q : dot_S8000x128_S128x128_S8000x128_1_0_0_1_n_n.contr.Idx) : (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

/-- The product's right operand is read in the output's column. -/
theorem rhs_col (i : S8000x128.Idx) (q : dot_S8000x128_S128x128_S8000x128_1_0_0_1_n_n.contr.Idx) : (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- A tile times a 128 × 128 matrix into a zero accumulator, at entry (p, q): the sum over the 128 shared positions. -/
theorem tile_product (x : FVec Ideal S8000x128 .bf16) (w : FVec Ideal S128x128 .bf16) (p : Fin 8000) (q : Fin 128) :
    matmul (F := Ideal) dot_S8000x128_S128x128_S8000x128_1_0_0_1_n_n none x w (constant (F := Ideal) S8000x128 .f32 0x00000000#32) (ix2 p q)
      = ∑ k : Fin 128, x (ix2 p k) * w (ix2 k q) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhs_row _ _
    | ⟨1, _⟩ => exact (dot_S8000x128_S128x128_S8000x128_1_0_0_1_n_n.lhsIdx_val_of_single rfl _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (dot_S8000x128_S128x128_S8000x128_1_0_0_1_n_n.rhsIdx_val_of_single rfl _ _).trans hk
    | ⟨1, _⟩ => exact rhs_col _ _)
  rw [el, er]

/-- Narrowing a same-shape cast of a tile to bf16 changes no entry. -/
theorem narrowed_tile (x : Vec Ideal S8000x128 .f32) (i : S8000x128.Idx) :
    (truncf .bf16 (shapeCast S8000x128 x shapeCasts_S8000x128_S8000x128) bitsLt_bf16_f32 : FVec Ideal S8000x128 .bf16) i = x i := by
  rw [truncf_apply, shapeCast_self]

/-- The same for a 128 × 128 matrix. -/
theorem narrowed_matrix (w : Vec Ideal S128x128 .f32) (i : S128x128.Idx) :
    (truncf .bf16 (shapeCast S128x128 w shapeCasts_S128x128_S128x128) bitsLt_bf16_f32 : FVec Ideal S128x128 .bf16) i = w i := by
  rw [truncf_apply, shapeCast_self]

/-- The bias row spread over the tile's rows, at (p, q): the row's entry q. -/
theorem bias_spread (v : Vec Ideal S1x128 .f32) (p : Fin 8000) (q : Fin 128) :
    broadcastTo S8000x128 (shapeCast S1x128 v shapeCasts_S1x128_S1x128) broadcasts_S1x128_S8000x128 (ix2 p q)
      = v (ix2 (0 : Fin 1) q) := by
  rw [shapeCast_self]
  exact broadcastTo_1b_ab_apply v broadcasts_S1x128_S8000x128 p q

/-- THE STORED TILE at (p, q). -/
theorem stored_apply (x0 x1 : Vec Ideal S8000x128 .f32) (x2 x3 : Vec Ideal S128x128 .f32) (x4 : Vec Ideal S1x128 .f32)
    (p : Fin 8000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) 0 := by
  unfold k0_pay1
  refine (congrArg₂ max (congrArg₂ (· + ·) (congrArg₂ (· + ·) (tile_product _ _ p q) (tile_product _ _ p q))
    (bias_spread x4 p q)) Ideal.ofBits_zero_f32).trans ?_
  simp only [narrowed_tile, narrowed_matrix]

end Cert.KernelIdeal.Payload

end
-- ==== Proof.KernelBlocks.lean ====
/-
  The region's output array after the run, as one function of the five arrays the region stages.

  The grid has 50 points. Point `t` stages rows 8000·t .. 8000·t + 7999 of the two packed feature arrays, the whole of
  the two block matrices and of the bias row, and writes rows 8000·t .. 8000·t + 7999 of the output. Entry (p, q) of
  what it stores depends on row p of its two feature tiles only, which is row 8000·t + p of the arrays: so every
  point's block is a block of ONE function of the whole arrays,

      out[r, q]  =  max ( Σ_{k<128} X_i[r,k]·B₁[k,q]  +  Σ_{k<128} X_j[r,k]·B₂[k,q]  +  bias[0,q] ,  0 ),

  and since the 50 row blocks tile the 400000 rows (row r lies in block r / 8000), the array ends as that function.
-/
import proofs.«121265_j12463995093091_2_alg».proof.Proof.Gen.KernelIdeal.Frame
import proofs.«121265_j12463995093091_2_alg».proof.Proof.KernelPayload

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- Entry (r, q) of the region's output, from the five staged arrays. -/
def regionOutAt (X0 X1 : S400000x128.Idx → EReal) (B1 B2 : S128x128.Idx → EReal) (bias : S1x128.Idx → EReal)
    (r : Fin 400000) (q : Fin 128) : EReal :=
  max ((∑ k : Fin 128, X0 (ix2 r k) * B1 (ix2 k q)) + (∑ k : Fin 128, X1 (ix2 r k) * B2 (ix2 k q)) + bias (ix2 (0 : Fin 1) q)) 0

/-- The region's output as a [400000, 128] array. -/
def regionOut (X0 X1 : S400000x128.Idx → EReal) (B1 B2 : S128x128.Idx → EReal) (bias : S1x128.Idx → EReal) :
    S400000x128.Idx → EReal :=
  fun i => regionOutAt X0 X1 B1 B2 bias ⟨(i 0).val, (i 0).isLt⟩ ⟨(i 1).val, (i 1).isLt⟩

theorem regionOut_ix2 (X0 X1 : S400000x128.Idx → EReal) (B1 B2 : S128x128.Idx → EReal) (bias : S1x128.Idx → EReal)
    (r : Fin 400000) (q : Fin 128) : regionOut X0 X1 B1 B2 bias (ix2 r q) = regionOutAt X0 X1 B1 B2 bias r q := rfl

/-- A stored tile is determined by its entries: if `G` has the stored value's formula at every (p, q), it is the tile. -/
theorem stored_eq (x0 x1 : Vec Ideal S8000x128 .f32) (x2 x3 : Vec Ideal S128x128 .f32) (x4 : Vec Ideal S1x128 .f32)
    (G : S8000x128.Idx → EReal)
    (h : ∀ (p : Fin 8000) (q : Fin 128), G (ix2 p q)
      = max ((∑ k : Fin 128, x0 (ix2 p k) * x2 (ix2 k q)) + (∑ k : Fin 128, x1 (ix2 p k) * x3 (ix2 k q)) + x4 (ix2 (0 : Fin 1) q)) 0) :
    k0_pay1 (F := Ideal) x0 x1 x2 x3 x4 = G := by
  funext j
  obtain ⟨p, q, rfl⟩ : ∃ (p : Fin 8000) (q : Fin 128), j = ix2 p q := ⟨j 0, j 1, eq_ix2 j⟩
  rw [Payload.stored_apply, h]

theorem hz : (![0, 0] : Fin 2 → Nat) = fun _ => 0 := funext fun a => by fin_cases a <;> rfl

/-- The printed index maps, decided over the 50 points: the feature windows and the output window sit at row block
    `t`, column block 0; the matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- Row `p` of point `t`'s blocks is row 8000·t + p of the arrays. -/
def row (t : Fin cfg0.N) (p : Fin 8000) : Fin 400000 :=
  ⟨t.val * 8000 + p.val, by have := point_lt t; have := p.isLt; omega⟩

variable (m : (ℓ : Loc nD τ sig) → Buf (Elt Ideal) ℓ)

/-- The x_i tile at point `t`, entry (p, k): the packed x_i array at (8000·t + p, k). -/
theorem tile_xi (c : Dev nD) (t : Fin cfg0.N) (p : Fin 8000) (k : Fin 128) :
    iblk m c 0 t (ix2 p k) = V m c main_v12 (ix2 (row t p) k) := by
  obtain ⟨e0, e1, -⟩ := idx_facts t
  show V m c main_v12 (((cfg0.win 0).blk t).view.emb (ix2 p k)) = V m c main_v12 (ix2 (row t p) k)
  refine congrArg (V m c main_v12) (funext fun a => Fin.ext ?_)
  match a with
  | ⟨0, _⟩ => show win0_0.index t (0 : Fin 2) * 8000 + 1 * p.val = t.val * 8000 + p.val; omega
  | ⟨1, _⟩ => show win0_0.index t (1 : Fin 2) * 128 + 1 * k.val = k.val; omega

/-- The x_j tile at point `t`, entry (p, k): the packed x_j array at (8000·t + p, k). -/
theorem tile_xj (c : Dev nD) (t : Fin cfg0.N) (p : Fin 8000) (k : Fin 128) :
    iblk m c 1 t (ix2 p k) = V m c main_v13 (ix2 (row t p) k) := by
  obtain ⟨-, -, e0, e1, -⟩ := idx_facts t
  show V m c main_v13 (((cfg0.win 1).blk t).view.emb (ix2 p k)) = V m c main_v13 (ix2 (row t p) k)
  refine congrArg (V m c main_v13) (funext fun a => Fin.ext ?_)
  match a with
  | ⟨0, _⟩ => show win0_1.index t (0 : Fin 2) * 8000 + 1 * p.val = t.val * 8000 + p.val; omega
  | ⟨1, _⟩ => show win0_1.index t (1 : Fin 2) * 128 + 1 * k.val = k.val; omega

/-- The first block matrix is staged whole at every point. -/
theorem tile_b1 (c : Dev nD) (t : Fin cfg0.N) (k q : Fin 128) :
    iblk m c 2 t (ix2 k q) = V m c main_v5 (ix2 k q) := by
  obtain ⟨-, -, -, -, e0, e1, -⟩ := idx_facts t
  show V m c main_v5 (((cfg0.win 2).blk t).view.emb (ix2 k q)) = V m c main_v5 (ix2 k q)
  refine congrArg (V m c main_v5) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the second. -/
theorem tile_b2 (c : Dev nD) (t : Fin cfg0.N) (k q : Fin 128) :
    iblk m c 3 t (ix2 k q) = V m c main_v9 (ix2 k q) := by
  obtain ⟨-, -, -, -, -, -, e0, e1, -⟩ := idx_facts t
  show V m c main_v9 (((cfg0.win 3).blk t).view.emb (ix2 k q)) = V m c main_v9 (ix2 k q)
  refine congrArg (V m c main_v9) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- And the bias row. -/
theorem tile_bias (c : Dev nD) (t : Fin cfg0.N) (q : Fin 128) :
    iblk m c 4 t (ix2 (0 : Fin 1) q) = V m c main_v11 (ix2 (0 : Fin 1) q) := by
  obtain ⟨-, -, -, -, -, -, -, -, e0, e1, -⟩ := idx_facts t
  show V m c main_v11 (((cfg0.win 4).blk t).view.emb (ix2 (0 : Fin 1) q)) = V m c main_v11 (ix2 (0 : Fin 1) q)
  refine congrArg (V m c main_v11) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry (p, q) of the output's block at point `t` sits at (8000·t + p, q) of the output array. -/
theorem out_emb (t : Fin cfg0.N) (p : Fin 8000) (q : Fin 128) :
    ((cfg0.win 5).blk t).view.emb (ix2 p q) = ix2 (row t p) q := by
  obtain ⟨-, -, -, -, -, -, -, -, -, -, e0, e1⟩ := idx_facts t
  refine funext fun a => Fin.ext ?_
  match a with
  | ⟨0, _⟩ => show win0_5.index t (0 : Fin 2) * 8000 + 1 * p.val = t.val * 8000 + p.val; omega
  | ⟨1, _⟩ => show win0_5.index t (1 : Fin 2) * 128 + 1 * q.val = q.val; omega

/-- WHAT POINT `t` WRITES BACK is block `t` of `regionOut` of the arrays as the region finds them. -/
theorem flushed_eq (c : Dev nD) (t : Fin cfg0.N) :
    (dats m 0 c).flushed 5 t = ((cfg0.win 5).blk t).view.read (Elt Ideal)
      (regionOut (V m c main_v12) (V m c main_v13) (V m c main_v5) (V m c main_v9) (V m c main_v11)) := by
  show (cfg0.win 5).cut (grid0.coords t) ((dats m 0 c).after 5 t) = _
  rw [after0_5]
  unfold out0_5
  rw [View.canon_unit_zero hz]
  simp only [View.ld_unit_zero (S := S8000x128) hz, View.ld_unit_zero (S := S128x128) hz, View.ld_unit_zero (S := S1x128) hz]
  refine stored_eq (iblk m c 0 t) (iblk m c 1 t) (iblk m c 2 t) (iblk m c 3 t) (iblk m c 4 t) _ (fun p q => ?_)
  show regionOut (V m c main_v12) (V m c main_v13) (V m c main_v5) (V m c main_v9) (V m c main_v11)
    (((cfg0.win 5).blk t).view.emb (ix2 p q)) = _
  rw [out_emb, regionOut_ix2]
  unfold regionOutAt
  simp only [tile_xi, tile_xj, tile_b1, tile_b2, tile_bias]

/-- An index of the output array is in point `t`'s block iff each coordinate is in the block's range on its axis. -/
theorem mem_blk (t : Fin cfg0.N) (i : S400000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v14).slice (win0_5.rect t)).set ↔ _
  rw [View.set_slice_whole, Rect.mem_set_unit]
  exact Iff.rfl

/-- Every row of the output lies in some point's block: row r in that of point r / 8000. -/
theorem cover (i : S400000x128.Idx) :
    ∃ t : Fin cfg0.N, (cfg0.win 5).flush t = true ∧ i ∈ ((cfg0.win 5).blk t).view.set := by
  have hi0 : (i 0).val < 400000 := (i 0).isLt
  have hi1 : (i 1).val < 128 := (i 1).isLt
  obtain ⟨t, ht⟩ : ∃ t : Fin cfg0.N, t.val = (i 0).val / 8000 :=
    ⟨⟨(i 0).val / 8000, lt_of_lt_of_eq (by omega : (i 0).val / 8000 < 50) N_0.symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 8000 ≤ (i 0).val ∧ (i 0).val < win0_5.index t (0 : Fin 2) * 8000 + 8000
    omega
  | ⟨1, _⟩ =>
    show win0_5.index t (1 : Fin 2) * 128 ≤ (i 1).val ∧ (i 1).val < win0_5.index t (1 : Fin 2) * 128 + 128
    omega

/-- THE OUTPUT ARRAY after the run. -/
theorem final (c : Dev nD) : (dats m 0 c).arrAt 5 cfg0.N
    = regionOut (V m c main_v12) (V m c main_v13) (V m c main_v5) (V m c main_v9) (V m c main_v11) :=
  (dats m 0 c).arrAt_eq_of_cover 5 _ (fun t _ => flushed_eq m c t) cover

end Cert.KernelIdeal.Blocks

end
-- ==== Proof.LibHalfSum.lean ====
/-
  Sums over `n + n` consecutive positions, cut in the middle.

  A sum over `Fin (n + n)` is the sum over its first `n` positions plus the sum over its last `n`; when the
  terms vanish on one half, only the other half is left. Stated over any commutative additive monoid, so it
  holds on the extended reals as it stands: nothing here cancels, distributes or needs a finite value.
-/
import Mathlib.Algebra.BigOperators.Fin

namespace HalfSum

variable {M : Type*} [AddCommMonoid M]

/-- A sum over `n + n` positions is the sum over the first `n` plus the sum over the last `n`. -/
theorem sum_halves (n : ℕ) (f : Fin (n + n) → M) :
    ∑ k, f k = (∑ k : Fin n, f (Fin.castAdd n k)) + ∑ k : Fin n, f (Fin.natAdd n k) :=
  Fin.sum_univ_add f

/-- If every term on the last `n` positions is zero, the sum is the sum over the first `n`. -/
theorem sum_of_last_zero (n : ℕ) (f : Fin (n + n) → M) (h : ∀ k : Fin n, f (Fin.natAdd n k) = 0) :
    ∑ k, f k = ∑ k : Fin n, f (Fin.castAdd n k) := by
  rw [sum_halves, Finset.sum_eq_zero (fun k _ => h k), add_zero]

/-- If every term on the first `n` positions is zero, the sum is the sum over the last `n`. -/
theorem sum_of_first_zero (n : ℕ) (f : Fin (n + n) → M) (h : ∀ k : Fin n, f (Fin.castAdd n k) = 0) :
    ∑ k, f k = ∑ k : Fin n, f (Fin.natAdd n k) := by
  rw [sum_halves, Finset.sum_eq_zero (fun k _ => h k), zero_add]

end HalfSum
-- ==== Proof.KernelIsSpec.lean ====
/-
  The kernel's messages are the specification.

  Put together: edge 2r is the left half of packed output row r and edge 2r + 1 the right half. Column `c` of the left
  half meets, in the block matrix [[B, 0], [0, B]], the block B in rows 0..63 and zeros in rows 64..127; so of the
  128 products of a packed row with that column only the first 64 are left — the products of edge 2r's own features
  with column `c` of B — and the other 64 are products with zero, which vanish on the extended reals whatever the
  other factor is (x · 0 = 0 also at ±∞). Column `c` of the right half is the mirror image and picks edge 2r + 1. With
  B the upper half of W for x_i and the lower half for x_j, and the doubled bias row read in either half, each edge's
  entry is the specification's formula.
-/
import proofs.«121265_j12463995093091_2_alg».proof.Proof.KernelOperands
import proofs.«121265_j12463995093091_2_alg».proof.Proof.KernelBlocks
import proofs.«121265_j12463995093091_2_alg».proof.Proof.LibHalfSum

noncomputable section

namespace Cert.KernelIdeal.KernelValue

open Cert.KernelIdeal Cert.KernelIdeal.Gen Cert.KernelIdeal.Entry Cert.KernelIdeal.Tail Cert.KernelIdeal.Operands
open Cert.KernelIdeal.Blocks Cert.EdgeMlp Idealize.ShloMosaic Idealize.ShloMosaic.ValueIdx

/-- A packed row against a LEFT-half column of [[B, 0], [0, B]]: the row's left half against that column of B. -/
theorem row_blockDiag_upper (X : S400000x128.Idx → EReal) (B : S64x64.Idx → EReal) (r : Fin 400000) (c : Fin 64) :
    ∑ k : Fin 128, X (ix2 r k) * blockDiag B zeroBlock (ix2 k (upper c))
      = ∑ k : Fin 64, X (ix2 r (upper k)) * B (ix2 k c) := by
  refine (HalfSum.sum_of_last_zero 64 (fun k : Fin 128 => X (ix2 r k) * blockDiag B zeroBlock (ix2 k (upper c)))
    (fun k => ?_)).trans (Finset.sum_congr rfl fun k _ => ?_)
  · show X (ix2 r (lower k)) * blockDiag B zeroBlock (ix2 (lower k) (upper c)) = 0
    rw [blockDiag_lu, zeroBlock_apply, mul_zero]
  · show X (ix2 r (upper k)) * blockDiag B zeroBlock (ix2 (upper k) (upper c)) = _
    rw [blockDiag_uu]

/-- A packed row against a RIGHT-half column: the row's right half against that column of B. -/
theorem row_blockDiag_lower (X : S400000x128.Idx → EReal) (B : S64x64.Idx → EReal) (r : Fin 400000) (c : Fin 64) :
    ∑ k : Fin 128, X (ix2 r k) * blockDiag B zeroBlock (ix2 k (lower c))
      = ∑ k : Fin 64, X (ix2 r (lower k)) * B (ix2 k c) := by
  refine (HalfSum.sum_of_first_zero 64 (fun k : Fin 128 => X (ix2 r k) * blockDiag B zeroBlock (ix2 k (lower c)))
    (fun k => ?_)).trans (Finset.sum_congr rfl fun k _ => ?_)
  · show X (ix2 r (upper k)) * blockDiag B zeroBlock (ix2 (upper k) (lower c)) = 0
    rw [blockDiag_ul, zeroBlock_apply, mul_zero]
  · show X (ix2 r (lower k)) * blockDiag B zeroBlock (ix2 (lower k) (lower c)) = _
    rw [blockDiag_ll]

/-- Every edge is the first or the second edge of a packed row. -/
theorem even_or_odd (e : Fin 800000) : ∃ r : Fin 400000, e = even r ∨ e = odd r := by
  have he : e.val < 800000 := e.isLt
  obtain ⟨n, hn | hn⟩ := Nat.even_or_odd' e.val
  · exact ⟨⟨n, by omega⟩, Or.inl (Fin.ext hn)⟩
  · exact ⟨⟨n, by omega⟩, Or.inr (Fin.ext hn)⟩

variable (x0 x1 : S800000x64.Idx → EReal) (W : S128x64.Idx → EReal) (b : S64.Idx → EReal)

/-- The left half of packed output row r is the message of edge 2r. -/
theorem regionOut_even (r : Fin 400000) (c : Fin 64) :
    regionOutAt (packed x0) (packed x1) (blockDiag (upperHalf W) zeroBlock) (blockDiag (lowerHalf W) zeroBlock) (biasRow b)
      r (upper c) = msgAt x0 x1 W b (even r) c := by
  unfold regionOutAt msgAt
  rw [row_blockDiag_upper, row_blockDiag_upper, biasRow_upper]
  simp only [packed_upper, upperHalf_apply, lowerHalf_apply]

/-- The right half of packed output row r is the message of edge 2r + 1. -/
theorem regionOut_odd (r : Fin 400000) (c : Fin 64) :
    regionOutAt (packed x0) (packed x1) (blockDiag (upperHalf W) zeroBlock) (blockDiag (lowerHalf W) zeroBlock) (biasRow b)
      r (lower c) = msgAt x0 x1 W b (odd r) c := by
  unfold regionOutAt msgAt
  rw [row_blockDiag_lower, row_blockDiag_lower, biasRow_lower]
  simp only [packed_lower, upperHalf_apply, lowerHalf_apply]

/-- The kernel's message array — the region's output, one edge per row — is the specification's, index by index. -/
theorem messages_eq :
    unpacked (regionOut (packed x0) (packed x1) (blockDiag (upperHalf W) zeroBlock) (blockDiag (lowerHalf W) zeroBlock) (biasRow b))
      = msg x0 x1 W b := by
  funext i
  obtain ⟨e, c, rfl⟩ : ∃ (e : Fin 800000) (c : Fin 64), i = ix2 e c := ⟨i 0, i 1, eq_ix2 i⟩
  rw [msg_ix2]
  obtain ⟨r, rfl | rfl⟩ := even_or_odd e
  · rw [unpacked_even, regionOut_ix2, regionOut_even]
  · rw [unpacked_odd, regionOut_ix2, regionOut_odd]

end Cert.KernelIdeal.KernelValue

end
-- ==== Proof.KernelRun.lean ====
/-
  The kernel's program, run: its two results as the specification's functions of the launch arguments.

  Every weakly fair execution ends; the message result holds the specification's messages of the arguments the
  program was launched with, the aggregated result their segment sum by the launched recipients, and the arguments
  are unchanged. The pieces: the frame run leaves the region's output array at what the 50 points wrote and the later
  host lines applied to it; that array is one function of the staged arrays; the staged arrays are the host's
  re-layings of the arguments; and the re-laid result is the specification, edge by edge.
-/
import proofs.«121265_j12463995093091_2_alg».proof.Proof.KernelIsSpec

noncomputable section

namespace Cert.KernelIdeal.KernelRun

open Cert.KernelIdeal Cert.KernelIdeal.Gen Idealize.ShloMosaic Idealize.ShloMosaic.TcCoe Idealize.SL.Sem
open Cert.KernelIdeal.Entry Cert.KernelIdeal.Tail Cert.EdgeMlp

variable (m : (ℓ : Loc nD τ sig) → Buf (Elt Ideal) ℓ) (ρ : Dev nD → PrngReg)

/-- The region's output, one edge per row, is the specification's messages of the launch arguments. -/
theorem region_messages (c : Dev nD) :
    unpacked ((dats m 0 c).arrAt 5 cfg0.N) = (msg (m ((c.tc : Thread nD τ).loc main_arg0)) (m ((c.tc : Thread nD τ).loc main_arg1)) (m ((c.tc : Thread nD τ).loc main_arg3)) (m ((c.tc : Thread nD τ).loc main_arg4))) := by
  rw [Blocks.final, V_xi, V_xj, V_w1, V_w2, V_bias]
  exact KernelValue.messages_eq _ _ _ _

/-- The run, with both results named. -/
theorem run : θ_run defs (onTc (τ := τ) (main (F := Ideal))) ⟨m, fun _ => 0, ρ⟩ (fun r => ∀ c : Dev nD,
      r.2.mem ((c.tc : Thread nD τ).loc main_v18) = segmentSum (m ((c.tc : Thread nD τ).loc main_arg2)) (msg (m ((c.tc : Thread nD τ).loc main_arg0)) (m ((c.tc : Thread nD τ).loc main_arg1)) (m ((c.tc : Thread nD τ).loc main_arg3)) (m ((c.tc : Thread nD τ).loc main_arg4)))
      ∧ r.2.mem ((c.tc : Thread nD τ).loc main_v15) = (msg (m ((c.tc : Thread nD τ).loc main_arg0)) (m ((c.tc : Thread nD τ).loc main_arg1)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v18 (Pipeline.mem_restRefs_of main_v18 (by decide) (by decide))).trans
        ((aggregated m c).trans (congrArg (segmentSum _) (region_messages m c))),
      ((h c).2 main_v15 (Pipeline.mem_restRefs_of main_v15 (by decide) (by decide))).trans
        ((messages m c).trans (region_messages m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.RefIsSpec.lean ====
/-
  The reference's messages are the specification.

  The reference lays x_i and x_j end to end into a [800000, 128] array and contracts its 128 columns with the 128
  rows of W. A column below 64 of the joined array is a column of x_i, a column from 64 on is a column of x_j; so
  the contraction over 128 positions, cut in the middle, is the specification's two half-sums. The bias (broadcast
  through [1, 64] to every row) and the rectifier's zero (a broadcast constant) are read at the index directly.
  Cutting a finite sum in two uses only that addition on the extended reals is commutative and associative.
-/
import proofs.«121265_j12463995093091_2_alg».proof.Proof.Gen.ReferenceIdeal.Read
import proofs.«121265_j12463995093091_2_alg».proof.Proof.Spec
import proofs.«121265_j12463995093091_2_alg».proof.Proof.LibHalfSum

noncomputable section

namespace Cert.ReferenceIdeal.RefValue

open Cert.ReferenceIdeal Cert.ReferenceIdeal.Gen Cert.ReferenceIdeal.Read Idealize.ShloMosaic Idealize.ShloMosaic.ValueIdx Cert.EdgeMlp

/-- A column below 64 of the joined array is that column of x_i. -/
theorem joined_upper (x0 x1 : S800000x64.Idx → EReal) (e : Fin 800000) (k : Fin 64) :
    val_main_v0 (F := Ideal) x0 x1 (ix2 e (upper k)) = x0 (ix2 e k) := by
  unfold val_main_v0
  exact concatenate_pair_apply_left (1 : Fin 2) x0 x1 concatenates_S800000x64_S800000x64_S800000x128_d1
    (ix2 e (upper k)) rfl (ix2 e k) (fun b => by match b with | ⟨0, _⟩ => rfl | ⟨1, _⟩ => rfl)

/-- Column `64 + k` of the joined array is column `k` of x_j. -/
theorem joined_lower (x0 x1 : S800000x64.Idx → EReal) (e : Fin 800000) (k : Fin 64) :
    val_main_v0 (F := Ideal) x0 x1 (ix2 e (lower k)) = x1 (ix2 e k) := by
  unfold val_main_v0
  exact concatenate_pair_apply_right (1 : Fin 2) x0 x1 concatenates_S800000x64_S800000x64_S800000x128_d1
    (ix2 e (lower k)) rfl rfl (ix2 e k)
    (fun b hb => by match b with | ⟨0, _⟩ => rfl | ⟨1, _⟩ => exact absurd rfl hb)
    (by show k.val + 64 = 64 + k.val; omega)

/-- The contraction over the 128 joined columns is the two half-sums. -/
theorem contraction_halves (x0 x1 : S800000x64.Idx → EReal) (x3 : S128x64.Idx → EReal) (e : Fin 800000) (c : Fin 64) :
    ∑ k : Fin 128, val_main_v0 (F := Ideal) x0 x1 (ix2 e k) * x3 (ix2 k c)
      = (∑ k : Fin 64, x0 (ix2 e k) * x3 (ix2 (upper k) c)) + ∑ k : Fin 64, x1 (ix2 e k) * x3 (ix2 (lower k) c) := by
  refine (HalfSum.sum_halves 64 (fun k : Fin 128 => val_main_v0 (F := Ideal) x0 x1 (ix2 e k) * x3 (ix2 k c))).trans ?_
  refine congrArg₂ (· + ·) (Finset.sum_congr rfl fun k _ => ?_) (Finset.sum_congr rfl fun k _ => ?_)
  · show val_main_v0 (F := Ideal) x0 x1 (ix2 e (upper k)) * x3 (ix2 (upper k) c) = _
    rw [joined_upper]
  · show val_main_v0 (F := Ideal) x0 x1 (ix2 e (lower k)) * x3 (ix2 (lower k) c) = _
    rw [joined_lower]

/-- The reference's message array is the specification's, index by index. -/
theorem messages_eq (x0 x1 : S800000x64.Idx → EReal) (x3 : S128x64.Idx → EReal) (x4 : S64.Idx → EReal) :
    val_main_v5 (F := Ideal) x0 x1 x3 x4 = msg x0 x1 x3 x4 := by
  funext i
  obtain ⟨e, c, rfl⟩ : ∃ (e : Fin 800000) (c : Fin 64), i = ix2 e c := ⟨i 0, i 1, eq_ix2 i⟩
  have hl : ∀ k : Fin 128, lidx_main_v1 (ix2 e c) k = ix2 e k := fun k =>
    funext fun a => by match a with | ⟨0, _⟩ => rfl | ⟨1, _⟩ => rfl
  have hr : ∀ k : Fin 128, ridx_main_v1 (ix2 e c) k = ix2 k c := fun k =>
    funext fun a => by match a with | ⟨0, _⟩ => rfl | ⟨1, _⟩ => rfl
  have hb : idx_main_v2 (idx_main_v3 (ix2 e c)) = ix1 c :=
    funext fun a => by match a with | ⟨0, _⟩ => rfl
  rw [msg_ix2, val_main_v5_apply, val_main_v4_apply, val_main_v1_apply, val_main_v3_apply, val_main_v2_apply,
    val_main_call0_v0_apply, val_main_call0_cst_apply, hb]
  simp only [hl, hr]
  rw [contraction_halves]
  show max (_ + x4 (ix1 c)) (Ideal.ofBits .f32 0x00000000#32) = _
  rw [Ideal.ofBits_zero_f32]
  rfl

end Cert.ReferenceIdeal.RefValue

end
-- ==== Proof.RefRun.lean ====
/-
  The reference, run: its two results as the specification's functions of the launch arguments.

  The reference's message result is the specification's messages; its aggregated result is the segment sum of
  those messages by the recipients. The segment sum is the same scatter-add into zeros the kernel's program ends
  with, and is left closed.
-/
import proofs.«121265_j12463995093091_2_alg».proof.Proof.RefIsSpec

noncomputable section

namespace Cert.ReferenceIdeal.RefRun

open Cert.ReferenceIdeal Cert.ReferenceIdeal.Gen Idealize.ShloMosaic Idealize.ShloMosaic.TcCoe Idealize.SL.Sem
open Cert.EdgeMlp

/-- The segment sum by recipient, as the reference prints it. -/
def segmentSum (recipients : (⟨S800000, .i32⟩ : BufTy).Contents (Elt Ideal)) (msgs : S800000x64.Idx → EReal) :
    S50000x64.Idx → EReal :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 recipients) msgs

variable (m : (ℓ : Loc nD τ sig) → Buf (Elt Ideal) ℓ) (ρ : Dev nD → PrngReg)

/-- The run, with both results named. -/
theorem run : θ_run defs (onTc (τ := τ) (main (F := Ideal))) ⟨m, fun _ => 0, ρ⟩ (fun r => ∀ c : Dev nD,
      r.2.mem ((c.tc : Thread nD τ).loc main_v8) = segmentSum (m ((c.tc : Thread nD τ).loc main_arg2)) (msg (m ((c.tc : Thread nD τ).loc main_arg0)) (m ((c.tc : Thread nD τ).loc main_arg1)) (m ((c.tc : Thread nD τ).loc main_arg3)) (m ((c.tc : Thread nD τ).loc main_arg4)))
      ∧ r.2.mem ((c.tc : Thread nD τ).loc main_v5) = (msg (m ((c.tc : Thread nD τ).loc main_arg0)) (m ((c.tc : Thread nD τ).loc main_arg1)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).1.trans (congrArg (segmentSum _)
        ((Read.val_main_v5_eq _ _ _ _).trans (RefValue.messages_eq _ _ _ _))),
      (h c).2.1.trans ((Read.val_main_v5_eq _ _ _ _).trans (RefValue.messages_eq _ _ _ _)),
      (h c).2.2⟩)
    (Value.run (F := Ideal) m ρ)

end Cert.ReferenceIdeal.RefRun

end
-- ==== Proof.lean ====
/-
  A packed edge layer against its plain reference: `Cert.Claim`.

  For 800000 edges with feature vectors x_i[e], x_j[e] of length 64, a weight matrix W [128, 64] and a bias b [64],
  both programs return the messages

      msg[e, c]  =  max ( Σ_{k<64} x_i[e,k]·W[k,c]  +  Σ_{k<64} x_j[e,k]·W[64+k,c]  +  b[c] ,  0 )

  and their segment sum by recipient into 50000 rows.

  The reference lays x_i[e] and x_j[e] end to end and contracts all 128 columns with W in one product. The kernel
  packs two consecutive edges per row of a [400000, 128] array, multiplies the packed x_i by the block matrix
  [[W₁, 0], [0, W₁]] (W₁ the upper half of W) and the packed x_j by [[W₂, 0], [0, W₂]] (W₂ the lower half), adds a doubled
  bias row, rectifies, and unpacks. In each packed product half of the 128 terms are products with zero and vanish
  (on the extended reals x·0 = 0 at every x, ±∞ included), and the other half is one edge's own 64 terms; the
  reference's 128 terms, cut in the middle, are the same two groups of 64. Cutting a finite sum uses only that addition
  is commutative and associative, so nothing here distributes or cancels, and the precondition (finite inputs) is never
  opened. The operands' narrowing to bf16 inside the kernel is the identity on the extended reals.

  Both programs end with the same scatter-add of the messages into zeros; it is carried as one closed function, so
  the aggregated results agree because the messages do.

  The three frames: the kernel's programs' are the generated frame certificates; the reference's is its generated run
  with the results dropped. The idealization rewrote nothing, so `preserves` is `True`.
-/
import proofs.«121265_j12463995093091_2_alg».proof.Defs
import proofs.«121265_j12463995093091_2_alg».proof.Proof.Gen.Kernel
import proofs.«121265_j12463995093091_2_alg».proof.Proof.Gen.Kernel.Skeleton
import proofs.«121265_j12463995093091_2_alg».proof.Proof.Gen.Kernel.Launch
import proofs.«121265_j12463995093091_2_alg».proof.Proof.Gen.Kernel.Points
import proofs.«121265_j12463995093091_2_alg».proof.Proof.Gen.Kernel.Frame
import proofs.«121265_j12463995093091_2_alg».proof.Proof.Gen.KernelIdeal
import proofs.«121265_j12463995093091_2_alg».proof.Proof.Gen.KernelIdeal.Skeleton
import proofs.«121265_j12463995093091_2_alg».proof.Proof.Gen.KernelIdeal.Launch
import proofs.«121265_j12463995093091_2_alg».proof.Proof.Gen.KernelIdeal.Points
import proofs.«121265_j12463995093091_2_alg».proof.Proof.Gen.KernelIdeal.Frame
import proofs.«121265_j12463995093091_2_alg».proof.Proof.Gen.ReferenceIdeal
import proofs.«121265_j12463995093091_2_alg».proof.Proof.Gen.ReferenceIdeal.Run
import proofs.«121265_j12463995093091_2_alg».proof.Proof.Gen.ReferenceIdeal.Read
import proofs.«121265_j12463995093091_2_alg».proof.Proof.Gen.Pre_finite_inputs
import proofs.«121265_j12463995093091_2_alg».proof.Proof.KernelRun
import proofs.«121265_j12463995093091_2_alg».proof.Proof.RefRun
import Idealize.ShloMosaic.Adequacy
import Idealize.ShloMosaic.Init

noncomputable section

namespace Cert.Proof

open Idealize.ShloMosaic Idealize.SL.Sem

/-- The two programs print the same segment sum: a scatter-add with the same dimension numbers into the same zeros. -/
theorem segmentSum_same (recipients : (⟨Cert.ReferenceIdeal.S800000, .i32⟩ : BufTy).Contents (Elt Ideal))
    (msgs : Cert.ReferenceIdeal.S800000x64.Idx → EReal) :
    Cert.ReferenceIdeal.RefRun.segmentSum recipients msgs = Cert.KernelIdeal.Tail.segmentSum recipients msgs := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From arguments that agree, both programs end with the specification's messages of those arguments and their
    segment sum. -/
theorem algebraic : Cert.algebraic_KernelIdeal_ReferenceIdeal := by
  intro m ρ m' ρ' _ hagree
  refine ⟨_, _, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.RefRun.run m' ρ')
  · rw [(hagree c).1, (hagree c).2.1, (hagree c).2.2.1, (hagree c).2.2.2.1, (hagree c).2.2.2.2]
    exact segmentSum_same _ _
  · rw [(hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
